-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S256x256 .f32) (main_arg2 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S1x256 : Shape := ⟨2, ![1, 256]⟩
abbrev S256 : Shape := ⟨1, ![256]⟩
abbrev S_ : Shape := ⟨0, ![]⟩
abbrev S256x1 : Shape := ⟨2, ![256, 1]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S128x256x1 : Shape := ⟨3, ![128, 256, 1]⟩
abbrev S128x1x128 : Shape := ⟨3, ![128, 1, 128]⟩
abbrev S128x256x128 : Shape := ⟨3, ![128, 256, 128]⟩
abbrev S256x128 : Shape := ⟨2, ![256, 128]⟩
abbrev S1x256x128 : Shape := ⟨3, ![1, 256, 128]⟩

abbrev nBuf : Space → Nat
  | .hbm => 48
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1x256, .f32⟩
  | .hbm, ⟨5, _⟩ => ⟨S256x256, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S_, .f32⟩
  | .hbm, ⟨27, _⟩ => ⟨S256x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x256, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S128x256, .f32⟩
  | .local _ .vmem, ⟨4, _⟩ => ⟨S128x256, .f32⟩
  | .local _ .vmem, ⟨5, _⟩ => ⟨S256x256, .f32⟩
  | .local _ .vmem, ⟨6, _⟩ => ⟨S1x256, .f32⟩
  | .local _ .vmem, ⟨7, _⟩ => ⟨S128x256, .f32⟩
  | .local _ .vmem, ⟨8, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  iota_S256x256_d0_w32 : S256x256.Iotas .tc 32 [0]
  iota_S256x256_d1_w32 : S256x256.Iotas .tc 32 [1]
  natLt_1_32 : 1 < 32
  reduces_S256x256_S256 : S256x256.Reduces [1] S256
  shapeCasts_S256_S1x256 : S256.ShapeCasts S1x256
  inb_S1x256_S1x256_0_0 : ∀ a, (![0, 0] : Fin 2 → Nat) a + S1x256.size a ≤ S1x256.size a
  h_S1x256 : 0 < S1x256.numel
  reducesTo_S256x256_S256_d1 : S256x256.ReducesTo [1] S256
  h_S_ : 0 < S_.numel
  bcast_S256_S256x1_0 : S256.BroadcastsInDim S256x1 (![0] : Fin 1 → Fin S256x1.rank)
  transposes_S256x256_S256x256_1_0 : S256x256.Transposes [1, 0] S256x256
  bcast_S_S256x256 : S_.BroadcastsInDim S256x256 (![] : Fin 0 → Fin S256x256.rank)
  bcast_S256x1_S256x256_0_1 : S256x1.BroadcastsInDim S256x256 (![0, 1] : Fin 2 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S_d0_1 : S256x256.ReducesTo [0, 1] S_
  inb_S128x256_S128x256_0_0 : ∀ a, (![0, 0] : Fin 2 → Nat) a + S128x256.size a ≤ S128x256.size a
  h_S128x256 : 0 < S128x256.numel
  shapeCasts_S1x256_S1x256 : S1x256.ShapeCasts S1x256
  bitsLt_bf16_f32 : FTy.bits .bf16 < FTy.bits .f32
  reduces_S128x256_S128 : S128x256.Reduces [1] S128
  shapeCasts_S128_S128x1 : S128.ShapeCasts S128x1
  broadcasts_S128x1_S128x256 : S128x1.Broadcasts S128x256
  broadcasts_S1x256_S128x256 : S1x256.Broadcasts S128x256
  slices_S128x256_o0_0_S128x128 : S128x256.Slices ![0, 0] S128x128
  shapeCasts_S128x256_S128x256x1 : S128x256.ShapeCasts S128x256x1
  shapeCasts_S128x128_S128x1x128 : S128x128.ShapeCasts S128x1x128
  broadcasts_S128x256x1_S128x256x128 : S128x256x1.Broadcasts S128x256x128
  broadcasts_S128x1x128_S128x256x128 : S128x1x128.Broadcasts S128x256x128
  iota_S256x128_d0_w32 : S256x128.Iotas .tc 32 [0]
  iota_S256x128_d1_w32 : S256x128.Iotas .tc 32 [1]
  shapeCasts_S256x128_S1x256x128 : S256x128.ShapeCasts S1x256x128
  broadcasts_S1x256x128_S128x256x128 : S1x256x128.Broadcasts S128x256x128
  reduces_S128x256x128_S128x256 : S128x256x128.Reduces [2] S128x256
  slices_S128x256_o0_128_S128x128 : S128x256.Slices ![0, 128] S128x128
  reducesTo_S4096x256_S_d0_1 : S4096x256.ReducesTo [0, 1] S_
  dot_S256x256_S256x256_S256x256_1_0_0_1_n_n_wf : DotDims.WF S256x256 S256x256 S256x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S4096x256.size a
  hwx1_0 : ∀ i : grid1.Coords, EltTy.bits .f32 = 32 ∨ (Rect.block (s := S4096x256) S128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S4096x256.size a
  hwx1_3 : ∀ i : grid1.Coords, EltTy.bits .f32 = 32 ∨ (Rect.block (s := S4096x256) S128x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg2) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S256 : Shape := ⟨1, ![256]⟩
abbrev S1x256 : Shape := ⟨2, ![1, 256]⟩
abbrev S4096x256x1 : Shape := ⟨3, ![4096, 256, 1]⟩
abbrev S4096x1x256 : Shape := ⟨3, ![4096, 1, 256]⟩
abbrev S4096x256x256 : Shape := ⟨3, ![4096, 256, 256]⟩
abbrev S1x256x256 : Shape := ⟨3, ![1, 256, 256]⟩
abbrev S256x1 : Shape := ⟨2, ![256, 1]⟩

abbrev nBuf : Space → Nat
  | .hbm => 140
  | .vmem => 0
  | .smem => 0
  | _ => 0

abbrev hbmTy0_0 (i : Nat) : BufTy := match i % 128 with
  | 0 => ⟨S4096x256, .f32⟩
  | 1 => ⟨S256x256, .f32⟩
  | 2 => ⟨S256x256, .f32⟩
  | 3 => ⟨S256x256, .i32⟩
  | 4 => ⟨S256x256, .i32⟩
  | 5 => ⟨S_, .i32⟩
  | 6 => ⟨S256x256, .i32⟩
  | 7 => ⟨S256x256, .i32⟩
  | 8 => ⟨S256x256, .i1⟩
  | 9 => ⟨S256x256, .f32⟩
  | 10 => ⟨S4096x256, .f32⟩
  | 11 => ⟨S_, .f32⟩
  | 12 => ⟨S4096, .f32⟩
  | 13 => ⟨S4096x1, .f32⟩
  | 14 => ⟨S256x256, .f32⟩
  | 15 => ⟨S4096x256, .f32⟩
  | 16 => ⟨S_, .f32⟩
  | 17 => ⟨S4096x256, .f32⟩
  | 18 => ⟨S4096x256, .f32⟩
  | 19 => ⟨S4096x256, .f32⟩
  | 20 => ⟨S4096x256, .f32⟩
  | 21 => ⟨S256x256, .f32⟩
  | 22 => ⟨S_, .f32⟩
  | 23 => ⟨S256, .f32⟩
  | 24 => ⟨S1x256, .f32⟩
  | 25 => ⟨S4096x256, .f32⟩
  | 26 => ⟨S4096x256, .f32⟩
  | 27 => ⟨S_, .f32⟩
  | 28 => ⟨S4096x256, .f32⟩
  | 29 => ⟨S4096x256, .f32⟩
  | 30 => ⟨S4096x256, .f32⟩
  | 31 => ⟨S4096x256x1, .f32⟩
  | 32 => ⟨S4096x1x256, .f32⟩
  | 33 => ⟨S4096x256x256, .f32⟩
  | 34 => ⟨S4096x256x256, .f32⟩
  | 35 => ⟨S4096x256x256, .f32⟩
  | 36 => ⟨S_, .f32⟩
  | 37 => ⟨S4096x256x256, .f32⟩
  | 38 => ⟨S4096x256x256, .f32⟩
  | 39 => ⟨S4096x256x256, .f32⟩
  | 40 => ⟨S4096x256x256, .f32⟩
  | 41 => ⟨S_, .f32⟩
  | 42 => ⟨S4096x256x256, .f32⟩
  | 43 => ⟨S4096x256x256, .f32⟩
  | 44 => ⟨S_, .f32⟩
  | 45 => ⟨S4096x256x256, .f32⟩
  | 46 => ⟨S4096x256x256, .f32⟩
  | 47 => ⟨S_, .f32⟩
  | 48 => ⟨S256x256, .f32⟩
  | 49 => ⟨S256x256, .f32⟩
  | 50 => ⟨S1x256x256, .f32⟩
  | 51 => ⟨S4096x256x256, .f32⟩
  | 52 => ⟨S4096x256x256, .f32⟩
  | 53 => ⟨S_, .f32⟩
  | 54 => ⟨S4096x256, .f32⟩
  | 55 => ⟨S_, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x256, .f32⟩
  | 62 => ⟨S_, .f32⟩
  | 63 => ⟨S4096x256, .f32⟩
  | 64 => ⟨S4096x256, .f32⟩
  | 65 => ⟨S4096x256, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S256x256, .f32⟩
  | 73 => ⟨S_, .f32⟩
  | 74 => ⟨S256x256, .f32⟩
  | 75 => ⟨S256x256, .f32⟩
  | 76 => ⟨S_, .f32⟩
  | 77 => ⟨S256x256, .f32⟩
  | 78 => ⟨S256x256, .f32⟩
  | 79 => ⟨S_, .f32⟩
  | 80 => ⟨S256x256, .f32⟩
  | 81 => ⟨S256x256, .f32⟩
  | 82 => ⟨S256x256, .f32⟩
  | 83 => ⟨S_, .f32⟩
  | 84 => ⟨S256, .f32⟩
  | 85 => ⟨S_, .f32⟩
  | 86 => ⟨S256, .f32⟩
  | 87 => ⟨S256, .f32⟩
  | 88 => ⟨S1x256, .f32⟩
  | 89 => ⟨S_, .f32⟩
  | 90 => ⟨S1x256, .f32⟩
  | 91 => ⟨S1x256, .f32⟩
  | 92 => ⟨S_, .f32⟩
  | 93 => ⟨S1x256, .f32⟩
  | 94 => ⟨S1x256, .f32⟩
  | 95 => ⟨S4096x256, .f32⟩
  | 96 => ⟨S4096x256, .f32⟩
  | 97 => ⟨S4096x256, .f32⟩
  | 98 => ⟨S_, .f32⟩
  | 99 => ⟨S_, .f32⟩
  | 100 => ⟨S_, .f32⟩
  | 101 => ⟨S_, .f32⟩
  | 102 => ⟨S256x256, .f32⟩
  | 103 => ⟨S_, .f32⟩
  | 104 => ⟨S256, .f32⟩
  | 105 => ⟨S256x1, .f32⟩
  | 106 => ⟨S256x256, .f32⟩
  | 107 => ⟨S256x256, .f32⟩
  | 108 => ⟨S_, .f32⟩
  | 109 => ⟨S256x256, .f32⟩
  | 110 => ⟨S256x256, .f32⟩
  | 111 => ⟨S256x256, .f32⟩
  | 112 => ⟨S256x256, .f32⟩
  | 113 => ⟨S256x256, .f32⟩
  | 114 => ⟨S_, .f32⟩
  | 115 => ⟨S256, .f32⟩
  | 116 => ⟨S1x256, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S256x256, .f32⟩
  | 123 => ⟨S_, .f32⟩
  | 124 => ⟨S_, .f32⟩
  | 125 => ⟨S_, .f32⟩
  | 126 => ⟨S_, .f32⟩
  | 127 => ⟨S_, .f32⟩
  | _ => ⟨S4096x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_19 : Ref sig .tc := ⟨.hbm, 98, rfl⟩
abbrev main_v74 : Ref sig .tc := ⟨.hbm, 99, rfl⟩
abbrev main_cst_20 : Ref sig .tc := ⟨.hbm, 100, rfl⟩
abbrev main_v75 : Ref sig .tc := ⟨.hbm, 101, rfl⟩
abbrev main_v76 : Ref sig .tc := ⟨.hbm, 102, rfl⟩
abbrev main_cst_21 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_22 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_23 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_24 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_25 : Ref sig .tc := ⟨.hbm, 123, rfl⟩
abbrev main_v93 : Ref sig .tc := ⟨.hbm, 124, rfl⟩
abbrev main_cst_26 : Ref sig .tc := ⟨.hbm, 125, rfl⟩
abbrev main_v94 : Ref sig .tc := ⟨.hbm, 126, rfl⟩
abbrev main_cst_27 : Ref sig .tc := ⟨.hbm, 127, rfl⟩
abbrev main_v95 : Ref sig .tc := ⟨.hbm, 128, rfl⟩
abbrev main_v96 : Ref sig .tc := ⟨.hbm, 129, rfl⟩
abbrev main_cst_28 : Ref sig .tc := ⟨.hbm, 130, rfl⟩
abbrev main_v97 : Ref sig .tc := ⟨.hbm, 131, rfl⟩
abbrev main_cst_29 : Ref sig .tc := ⟨.hbm, 132, rfl⟩
abbrev main_v98 : Ref sig .tc := ⟨.hbm, 133, rfl⟩
abbrev main_cst_30 : Ref sig .tc := ⟨.hbm, 134, rfl⟩
abbrev main_v99 : Ref sig .tc := ⟨.hbm, 135, rfl⟩
abbrev main_v100 : Ref sig .tc := ⟨.hbm, 136, rfl⟩
abbrev main_cst_31 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  transposes_S256x256_S256x256_1_0 : S256x256.Transposes [1, 0] S256x256
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  reducesTo_S256x256_S256_d1 : S256x256.ReducesTo [1] S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S4096x256_S4096x256x1_0_1 : S4096x256.BroadcastsInDim S4096x256x1 (![0, 1] : Fin 2 → Fin S4096x256x1.rank)
  bcast_S4096x256_S4096x1x256_0_2 : S4096x256.BroadcastsInDim S4096x1x256 (![0, 2] : Fin 2 → Fin S4096x1x256.rank)
  bcast_S4096x256x1_S4096x256x256_0_1_2 : S4096x256x1.BroadcastsInDim S4096x256x256 (![0, 1, 2] : Fin 3 → Fin S4096x256x256.rank)
  bcast_S4096x1x256_S4096x256x256_0_1_2 : S4096x1x256.BroadcastsInDim S4096x256x256 (![0, 1, 2] : Fin 3 → Fin S4096x256x256.rank)
  bcast_S_S4096x256x256 : S_.BroadcastsInDim S4096x256x256 (![] : Fin 0 → Fin S4096x256x256.rank)
  bcast_S256x256_S1x256x256_1_2 : S256x256.BroadcastsInDim S1x256x256 (![1, 2] : Fin 2 → Fin S1x256x256.rank)
  bcast_S1x256x256_S4096x256x256_0_1_2 : S1x256x256.BroadcastsInDim S4096x256x256 (![0, 1, 2] : Fin 3 → Fin S4096x256x256.rank)
  reducesTo_S4096x256x256_S4096x256_d2 : S4096x256x256.ReducesTo [2] S4096x256
  bcast_S_S256 : S_.BroadcastsInDim S256 (![] : Fin 0 → Fin S256.rank)
  bcast_S_S1x256 : S_.BroadcastsInDim S1x256 (![] : Fin 0 → Fin S1x256.rank)
  reducesTo_S4096x256_S_d0_1 : S4096x256.ReducesTo [0, 1] S_
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  reducesTo_S256x256_S_d0_1 : S256x256.ReducesTo [0, 1] S_
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

class Facts : Prop extends Facts₀ where

variable [Facts]
-- ==== Proof.RunValue.lean ====
/-
  The idealized kernel program's run with its RESULT kept in view.

  The program is four segments: the edge kernel's launch (one grid point), a stretch of 32 host operations,
  the distance kernel's launch (32 grid points) and a stretch of 10 host operations.  The contents of the
  TensorCore's buffers at the four boundaries are a fold from the launch memory: `W1` (the first launch's
  arrays at what its write-backs leave), `W2` (the first stretch applied), `W3` (the second launch's arrays at
  what its write-backs leave) and `W4` (the second stretch applied).  Every weakly fair execution terminates,
  nothing faulting, with every unscoped buffer at `W4`; read at the result buffer and at the three argument
  buffers this is the statement below: the result is `W4` at `main_v30`, and the arguments end as launched.
-/
import proofs.«140149_j61469571940955_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents `W4` and the three argument arrays as launched. -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.EdgeValue.lean ====
/-
  What the edge kernel's launch leaves in its two output arrays.

  The launch has ONE grid point, and each of its three windows is a single block that is the whole array: the
  256×256 logits (input), the 256×256 edge probabilities and the 1×256 degrees (outputs).  The body loads the whole
  input block and stores each output block whole, so the point writes back the body's two values of the logits
  array itself, and since that one block covers each output array, the arrays end holding exactly those values:
  `edgeBody L` and `degreeBody L` of the logits `L` as the launch finds them.
-/
import proofs.«140149_j61469571940955_1_alg».proof.Proof.Gen.KernelIdeal.Frame
import Idealize.ShloMosaic.Lib.Pipeline.Value

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- At the one grid point every window's block index is (0, 0). -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- So an index inside a block is the same index of the array: the logits' block, -/
theorem emb_in (t : Fin cfg0.N) (y : S256x256.Idx) : ((cfg0.win 0).blk t).view.emb y = y := by
  obtain ⟨e0, e1, -⟩ := index_zero t
  funext a; apply Fin.ext
  match a with
  | ⟨0, _⟩ => show win0_0.index t (0 : Fin 2) * 256 + 1 * (y 0).val = (y 0).val; omega
  | ⟨1, _⟩ => show win0_0.index t (1 : Fin 2) * 256 + 1 * (y 1).val = (y 1).val; omega

/-- the edge probabilities' block, -/
theorem emb_edge (t : Fin cfg0.N) (y : S256x256.Idx) : ((cfg0.win 1).blk t).view.emb y = y := by
  obtain ⟨-, -, e0, e1, -⟩ := index_zero t
  funext a; apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- and the degrees' block. -/
theorem emb_deg (t : Fin cfg0.N) (y : S1x256.Idx) : ((cfg0.win 2).blk t).view.emb y = y := by
  obtain ⟨-, -, -, -, e0, e1⟩ := index_zero t
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The logits' block at the point is the logits array. -/
theorem block_in (c : Dev nD) (t : Fin cfg0.N) : iblk0 V c 0 t = V c main_arg2 :=
  funext fun y => congrArg (V c main_arg2) (emb_in t y)

/-- The point writes back, as the edge probabilities' block, the body's first value of the logits array. -/
theorem flushed_edge (c : Dev nD) (t : Fin cfg0.N) :
    (dat0 V c).flushed 1 t = ((cfg0.win 1).blk t).view.read (Elt F) (k0_pay1 (V c main_arg2)) := by
  show (cfg0.win 1).cut (grid0.coords t) ((dat0 V c).after 1 t) = _
  rw [after0_1]
  unfold out0_1
  rw [View.canon_unit_zero zeros]
  simp only [View.ld_unit_zero (S := S256x256) zeros]
  rw [block_in]
  funext j
  show k0_pay1 (V c main_arg2) j = k0_pay1 (V c main_arg2) (((cfg0.win 1).blk t).view.emb j)
  rw [emb_edge t j]

/-- The point writes back, as the degrees' block, the body's second value of the logits array. -/
theorem flushed_deg (c : Dev nD) (t : Fin cfg0.N) :
    (dat0 V c).flushed 2 t = ((cfg0.win 2).blk t).view.read (Elt F) (k0_pay2 (V c main_arg2)) := by
  show (cfg0.win 2).cut (grid0.coords t) ((dat0 V c).after 2 t) = _
  rw [after0_2]
  unfold out0_2
  rw [View.canon_unit_zero zeros]
  simp only [View.ld_unit_zero (S := S256x256) zeros]
  rw [block_in]
  funext j
  show k0_pay2 (V c main_arg2) j = k0_pay2 (V c main_arg2) (((cfg0.win 2).blk t).view.emb j)
  rw [emb_deg t j]

/-- An index of the edge-probability array is in the point's block iff each coordinate is in the block's range. -/
theorem mem_block_edge (t : Fin cfg0.N) (i : S256x256.Idx) :
    i ∈ ((cfg0.win 1).blk t).view.set ↔ ∀ a : Fin 2, win0_1.index t a * S256x256.size a ≤ (i a).val ∧ (i a).val < win0_1.index t a * S256x256.size a + S256x256.size a := by
  show i ∈ ((View.whole main_v0_0).slice (win0_1.rect t)).set ↔ _
  rw [View.set_slice_whole, Rect.mem_set_unit]
  exact Iff.rfl

/-- The same for the degrees' array. -/
theorem mem_block_deg (t : Fin cfg0.N) (i : S1x256.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v0_1).slice (win0_2.rect t)).set ↔ _
  rw [View.set_slice_whole, Rect.mem_set_unit]
  exact Iff.rfl

/-- The one block covers the edge-probability array. -/
theorem cover_edge (i : S256x256.Idx) : ∃ t : Fin cfg0.N, (cfg0.win 1).flush t = true ∧ i ∈ ((cfg0.win 1).blk t).view.set := by
  refine ⟨t0_0, flush0_1 t0_0, ?_⟩
  rw [mem_block_edge]
  obtain ⟨-, -, e0, e1, -⟩ := index_zero t0_0
  intro a
  match a with
  | ⟨0, _⟩ => show win0_1.index t0_0 (0 : Fin 2) * 256 ≤ (i 0).val ∧ (i 0).val < win0_1.index t0_0 (0 : Fin 2) * 256 + 256; have hi : (i 0).val < 256 := (i 0).isLt; omega
  | ⟨1, _⟩ => show win0_1.index t0_0 (1 : Fin 2) * 256 ≤ (i 1).val ∧ (i 1).val < win0_1.index t0_0 (1 : Fin 2) * 256 + 256; have hi : (i 1).val < 256 := (i 1).isLt; omega

/-- The one block covers the degrees' array. -/
theorem cover_deg (i : S1x256.Idx) : ∃ t : Fin cfg0.N, (cfg0.win 2).flush t = true ∧ i ∈ ((cfg0.win 2).blk t).view.set := by
  refine ⟨t0_0, flush0_2 t0_0, ?_⟩
  rw [mem_block_deg]
  obtain ⟨-, -, -, -, e0, e1⟩ := index_zero t0_0
  intro a
  match a with
  | ⟨0, _⟩ => show win0_2.index t0_0 (0 : Fin 2) * 1 ≤ (i 0).val ∧ (i 0).val < win0_2.index t0_0 (0 : Fin 2) * 1 + 1; have hi : (i 0).val < 1 := (i 0).isLt; omega
  | ⟨1, _⟩ => show win0_2.index t0_0 (1 : Fin 2) * 256 ≤ (i 1).val ∧ (i 1).val < win0_2.index t0_0 (1 : Fin 2) * 256 + 256; have hi : (i 1).val < 256 := (i 1).isLt; omega

/-- After the launch the edge-probability array holds the body's first value of the logits. -/
theorem final_edge (c : Dev nD) : (dat0 V c).arrAt 1 cfg0.N = k0_pay1 (V c main_arg2) :=
  (dat0 V c).arrAt_eq_of_cover 1 (k0_pay1 (V c main_arg2)) (fun t _ => flushed_edge V c t) cover_edge

/-- After the launch the degrees' array holds the body's second value of the logits. -/
theorem final_deg (c : Dev nD) : (dat0 V c).arrAt 2 cfg0.N = k0_pay2 (V c main_arg2) :=
  (dat0 V c).arrAt_eq_of_cover 2 (k0_pay2 (V c main_arg2)) (fun t _ => flushed_deg V c t) cover_deg

end Cert.KernelIdeal.EdgeValue

end
-- ==== Proof.Mask.lean ====
/-
  The off-diagonal indicator, in the two spellings the programs use.

  Both programs multiply a pairwise quantity by a matrix that is 0 on the diagonal and 1 off it.  One program
  builds it as the comparison "row index differs from column index" widened to a word and converted to a float; the other as
  `1 - [row index equals column index]` with the comparison converted to a float directly.  Read on the extended
  reals both are the function `offDiag p q`: 0 when `p = q`, 1 otherwise.
-/
import Idealize.ShloMosaic.PureOps.Ideal
import Idealize.ShloMosaic.PureOps.Ideal.Laws
import Idealize.ShloMosaic.Lib.ValueIdx
import Idealize.ShloMosaic.Lib.IdealHost

noncomputable section

namespace Cert.Bridge

open Idealize.ShloMosaic

/-- 0 on the diagonal, 1 off it. -/
def offDiag (p q : ℕ) : EReal := if p = q then 0 else 1

/-- Two 32-bit words of numbers below 256 are equal exactly when the numbers are. -/
theorem ofNat32_inj {p q : ℕ} (hp : p < 256) (hq : q < 256) : BitVec.ofNat 32 p = BitVec.ofNat 32 q ↔ p = q := by
  constructor
  · intro h
    have h' := congrArg BitVec.toNat h
    simp only [BitVec.toNat_ofNat] at h'
    omega
  · rintro rfl; rfl

/-- "Row differs from column (shifted by `o`)", widened and converted signed, is the indicator. -/
theorem mask_ne (p q o : ℕ) (hp : p < 256) (hq : q + o < 256) :
    FloatOps.sitofp (F := Ideal) .f32
        ((IntOp.cmpi .ne (BitVec.ofNat 32 p) (IntOp.addi (BitVec.ofNat 32 q) (BitVec.ofNat 32 o))).setWidth 32)
      = offDiag p (q + o) := by
  have hadd : IntOp.addi (BitVec.ofNat 32 q) (BitVec.ofNat 32 o) = BitVec.ofNat 32 (q + o) := by
    unfold IntOp.addi; exact (BitVec.ofNat_add _ _).symm
  rw [hadd]
  unfold IntOp.cmpi offDiag
  by_cases h : p = q + o
  · have hb : (BitVec.ofNat 32 p != BitVec.ofNat 32 (q + o)) = false := by
      rw [h]; simp
    rw [if_pos h]
    show (((BitVec.setWidth 32 (BitVec.ofBool (BitVec.ofNat 32 p != BitVec.ofNat 32 (q + o)))).toInt : ℝ) : EReal) = 0
    rw [hb]; simp
  · have hb : (BitVec.ofNat 32 p != BitVec.ofNat 32 (q + o)) = true := by
      simp only [bne_iff_ne, ne_eq]
      exact fun e => h ((ofNat32_inj hp hq).mp e)
    rw [if_neg h]
    show (((BitVec.setWidth 32 (BitVec.ofBool (BitVec.ofNat 32 p != BitVec.ofNat 32 (q + o)))).toInt : ℝ) : EReal) = 1
    rw [hb]; simp

/-- "Row differs from column", without a shift. -/
theorem mask_ne0 (p q : ℕ) (hp : p < 256) (hq : q < 256) :
    FloatOps.sitofp (F := Ideal) .f32 ((IntOp.cmpi .ne (BitVec.ofNat 32 p) (BitVec.ofNat 32 q)).setWidth 32)
      = offDiag p q := by
  unfold IntOp.cmpi offDiag
  by_cases h : p = q
  · have hb : (BitVec.ofNat 32 p != BitVec.ofNat 32 q) = false := by
      rw [h]; simp
    rw [if_pos h]
    show (((BitVec.setWidth 32 (BitVec.ofBool (BitVec.ofNat 32 p != BitVec.ofNat 32 q))).toInt : ℝ) : EReal) = 0
    rw [hb]; simp
  · have hb : (BitVec.ofNat 32 p != BitVec.ofNat 32 q) = true := by
      simp only [bne_iff_ne, ne_eq]
      exact fun e => h ((ofNat32_inj hp hq).mp e)
    rw [if_neg h]
    show (((BitVec.setWidth 32 (BitVec.ofBool (BitVec.ofNat 32 p != BitVec.ofNat 32 q))).toInt : ℝ) : EReal) = 1
    rw [hb]; simp

/-- `1 - [row (plus zero) equals column]`, the comparison converted unsigned, is the indicator. -/
theorem mask_one_sub_eq (p q : ℕ) (hp : p < 256) (hq : q < 256) :
    (Ideal.ofBits .f32 0x3F800000#32 : EReal)
        - FloatOps.uitofp (F := Ideal) .f32 (IntOp.cmpi .eq (IntOp.addi (BitVec.ofNat 32 p) 0#32) (BitVec.ofNat 32 q))
      = offDiag p q := by
  have hadd : IntOp.addi (BitVec.ofNat 32 p) 0#32 = BitVec.ofNat 32 p := by
    unfold IntOp.addi; simp
  have hone : (Ideal.ofBits .f32 0x3F800000#32 : EReal) = 1 := Ideal.ofBits_one_f32
  rw [hadd, hone]
  unfold IntOp.cmpi offDiag
  by_cases h : p = q
  · have hb : (BitVec.ofNat 32 p == BitVec.ofNat 32 q) = true := by rw [h]; simp
    rw [if_pos h]
    show (1 : EReal) - (((BitVec.ofBool (BitVec.ofNat 32 p == BitVec.ofNat 32 q)).toNat : ℝ) : EReal) = 0
    rw [hb]
    show ((1 : ℝ) : EReal) - (((1 : ℕ) : ℝ) : EReal) = 0
    rw [← EReal.coe_sub]; norm_num
  · have hb : (BitVec.ofNat 32 p == BitVec.ofNat 32 q) = false := by
      simp only [beq_eq_false_iff_ne, ne_eq]
      exact fun e => h ((ofNat32_inj hp hq).mp e)
    rw [if_neg h]
    show (1 : EReal) - (((BitVec.ofBool (BitVec.ofNat 32 p == BitVec.ofNat 32 q)).toNat : ℝ) : EReal) = 1
    rw [hb]; simp

end Cert.Bridge

end
-- ==== Proof.Spec.lean ====
/-
  The quantities both programs compute, as functions on the extended reals.

  From logits `L` (256×256), codewords `W` (256×256) and data `X` (n×256):
  * the edge probability  e(p,q) = σ(½·(L(p,q) + L(q,p)))·[p ≠ q],  σ(x) = 1/(1 + e^(−x));
  * the degree            g(p)   = (Σ_q e(p,q)) / 255;
  * the distance          d(r,i) = √max(‖X_r‖² − 2·⟨X_r, W_i⟩ + ‖W_i‖², 0);
  * the soft rank         s(r,i) = Σ_j σ((d(r,i) − d(r,j)) / τ)·[i ≠ j];
  * the weighted distance o(r,i) = e^(−s(r,i)/λ)·(1 + ½·g(i))·d(r,i).
  The float constants stay as their 32-bit words (the same word on both sides is never evaluated).  Row `r` of
  `d`, `s` and `o` depends on `X` through its row `r` only, which is what lets a block of rows be computed from the
  block alone.
-/
import Idealize.ShloMosaic.PureOps.Ideal
import Idealize.ShloMosaic.PureOps.Ideal.Laws
import Idealize.ShloMosaic.Lib.ValueIdx
import proofs.«140149_j61469571940955_1_alg».proof.Proof.Mask

noncomputable section

namespace Cert.Bridge

open Idealize.ShloMosaic Idealize.ShloMosaic.ValueIdx

/-- A real-valued (extended) matrix with `n` rows and `m` columns. -/
abbrev Mat (n m : ℕ) : Type := (⟨2, ![n, m]⟩ : Shape).Idx → EReal

/-- The edge probability: the logistic of the symmetrized logit, zero on the diagonal. -/
def edgeAt (L : Mat 256 256) (p q : Fin 256) : EReal :=
  Ideal.logistic (Ideal.ofBits .f32 0x3F000000#32 * (L (ix2 p q) + L (ix2 q p))) * offDiag p.val q.val

/-- The degree: a row's edge probabilities summed, over 255. -/
def degAt (L : Mat 256 256) (p : Fin 256) : EReal :=
  Ideal.div (∑ q : Fin 256, edgeAt L p q) (Ideal.ofBits .f32 0x437F0000#32)

/-- A row's squared norm. -/
def sqNorm {n : ℕ} (A : Mat n 256) (r : Fin n) : EReal := ∑ k : Fin 256, A (ix2 r k) * A (ix2 r k)

/-- A row of `X` against a row of `W`. -/
def inner {n : ℕ} (X : Mat n 256) (W : Mat 256 256) (r : Fin n) (i : Fin 256) : EReal :=
  ∑ k : Fin 256, X (ix2 r k) * W (ix2 i k)

/-- The distance from data row `r` to codeword `i`. -/
def distAt {n : ℕ} (X : Mat n 256) (W : Mat 256 256) (r : Fin n) (i : Fin 256) : EReal :=
  Ideal.sqrt (max ((sqNorm X r - Ideal.ofBits .f32 0x40000000#32 * inner X W r i) + sqNorm W i)
    (Ideal.ofBits .f32 0x00000000#32))

/-- One term of the soft rank. -/
def rankTerm {n : ℕ} (X : Mat n 256) (W : Mat 256 256) (r : Fin n) (i j : Fin 256) : EReal :=
  Ideal.logistic (Ideal.div (distAt X W r i - distAt X W r j) (Ideal.ofBits .f32 0x3E4CCCCD#32)) * offDiag i.val j.val

/-- The soft rank of codeword `i` for data row `r`. -/
def rankAt {n : ℕ} (X : Mat n 256) (W : Mat 256 256) (r : Fin n) (i : Fin 256) : EReal :=
  ∑ j : Fin 256, rankTerm X W r i j

/-- The weighted distance. -/
def outAt {n : ℕ} (X : Mat n 256) (W : Mat 256 256) (L : Mat 256 256) (r : Fin n) (i : Fin 256) : EReal :=
  Ideal.exp (Ideal.div (-(rankAt X W r i)) (Ideal.ofBits .f32 0x41000000#32))
    * (Ideal.ofBits .f32 0x3F800000#32 + Ideal.ofBits .f32 0x3F000000#32 * degAt L i)
    * distAt X W r i

/-! ## Rows only -/

theorem sqNorm_row {n n' : ℕ} (X : Mat n 256) (X' : Mat n' 256) (r : Fin n) (r' : Fin n')
    (h : ∀ k : Fin 256, X (ix2 r k) = X' (ix2 r' k)) : sqNorm X r = sqNorm X' r' :=
  Finset.sum_congr rfl fun k _ => by rw [h k]

theorem inner_row {n n' : ℕ} (X : Mat n 256) (X' : Mat n' 256) (W : Mat 256 256) (r : Fin n) (r' : Fin n') (i : Fin 256)
    (h : ∀ k : Fin 256, X (ix2 r k) = X' (ix2 r' k)) : inner X W r i = inner X' W r' i :=
  Finset.sum_congr rfl fun k _ => by rw [h k]

theorem distAt_row {n n' : ℕ} (X : Mat n 256) (X' : Mat n' 256) (W : Mat 256 256) (r : Fin n) (r' : Fin n') (i : Fin 256)
    (h : ∀ k : Fin 256, X (ix2 r k) = X' (ix2 r' k)) : distAt X W r i = distAt X' W r' i := by
  unfold distAt; rw [sqNorm_row X X' r r' h, inner_row X X' W r r' i h]

theorem rankAt_row {n n' : ℕ} (X : Mat n 256) (X' : Mat n' 256) (W : Mat 256 256) (r : Fin n) (r' : Fin n') (i : Fin 256)
    (h : ∀ k : Fin 256, X (ix2 r k) = X' (ix2 r' k)) : rankAt X W r i = rankAt X' W r' i := by
  unfold rankAt rankTerm
  refine Finset.sum_congr rfl fun j _ => ?_
  rw [distAt_row X X' W r r' i h, distAt_row X X' W r r' j h]

theorem outAt_row {n n' : ℕ} (X : Mat n 256) (X' : Mat n' 256) (W L : Mat 256 256) (r : Fin n) (r' : Fin n') (i : Fin 256)
    (h : ∀ k : Fin 256, X (ix2 r k) = X' (ix2 r' k)) : outAt X W L r i = outAt X' W L r' i := by
  unfold outAt; rw [rankAt_row X X' W r r' i h, distAt_row X X' W r r' i h]

end Cert.Bridge

end
-- ==== Proof.LibLayout.lean ====
/-
  Layout operations of small ranks read at an index given by its coordinates: the unit axis a `keepdims` sum or a
  `[:, :, None]` adds at the END or in the MIDDLE of a shape, and the broadcasts along such a unit axis.  Each is the
  general "same row-major position" (for a cast) or "zero on the operand's unit axes" (for a broadcast) fact with
  both indices written out.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.LibSums.lean ====
/-
  Lane sums at the ideal values, read at an index given by its coordinates: a sum along the last axis of a rank-2 or
  rank-3 vector is, at each remaining index, the sum of the source over that axis's coordinate.
-/
import Idealize.ShloMosaic.PureOps.Ideal.Laws
import Idealize.ShloMosaic.Lib.ValueIdx

namespace Cert.Lib

open Idealize.ShloMosaic Idealize.ShloMosaic.ValueIdx

/-- A sum along the columns of an `[n, m]` vector reads, at row `r`, the sum of the row. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec FTy.f32.bits) = FKind.add.neutral .f32 hφ) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- A sum along the last axis of an `[a, b, c]` vector reads, at `(i, j)`, the sum over the last coordinate. -/
theorem laneSum3_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec FTy.f32.bits) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => ?_
  exact congrArg src (funext fun a => Fin.ext (by match a with | ⟨0, _⟩ => rfl | ⟨1, _⟩ => rfl | ⟨2, _⟩ => rfl))

end Cert.Lib
-- ==== Proof.DistBridge.lean ====
/-
  The distances: the second kernel's distance value on a block of rows, and the reference's distance stage, are both
  `distAt` — √max(‖x_r‖² − 2·⟨x_r, w_i⟩ + ‖w_i‖², 0).

  On the kernel's side the two squared norms are lane sums carried to the block's shape by a unit axis and a
  broadcast, and the inner products are one matrix product of the block with the transposed codewords into a zero
  accumulator (the narrowing of both operands to a shorter float format is the identity on the extended reals).
  On the reference's side the norms are host sums started from the zero word and the inner products one
  `dot_general`.  Term by term the two are the same sums over the 256 columns.
-/
import proofs.«140149_j61469571940955_1_alg».proof.Proof.Gen.KernelIdeal.Skeleton
import proofs.«140149_j61469571940955_1_alg».proof.Proof.Gen.ReferenceIdeal.Read
import proofs.«140149_j61469571940955_1_alg».proof.Proof.Spec
import proofs.«140149_j61469571940955_1_alg».proof.Proof.LibLayout
import proofs.«140149_j61469571940955_1_alg».proof.Proof.LibSums
import Idealize.ShloMosaic.Lib.ValueLayout
import Idealize.ShloMosaic.Lib.IdealHost
import Idealize.ShloMosaic.Lib.Pipeline.Value

set_option maxRecDepth 16384

noncomputable section

namespace Cert.Bridge

open Idealize.ShloMosaic Idealize.ShloMosaic.ValueIdx
open Cert.KernelIdeal.Gen Cert.ReferenceIdeal.Read

/-! ## The kernel's matrix product at an index -/

/-- The product's dimension record: rows of the block against rows of the transposed codewords. -/
abbrev blockDot : DotDims Cert.KernelIdeal.S128x256 Cert.KernelIdeal.S256x256 Cert.KernelIdeal.S128x256 :=
  Cert.KernelIdeal.dot_S128x256_S256x256_S128x256_1_0_0_1_n_n

theorem blockDot_lhs0 (i : Cert.KernelIdeal.S128x256.Idx) (q : blockDot.contr.Idx) :
    (blockDot.lhsIdx i q 0).val = (i 0).val := by
  unfold DotDims.lhsIdx
  rw [dif_neg (show ¬(0 : Fin Cert.KernelIdeal.S128x256.rank) ∈ blockDot.lhsBatch by decide),
    dif_pos (show (0 : Fin Cert.KernelIdeal.S128x256.rank) ∈ blockDot.lhsNonContracting by decide)]
  rfl
theorem blockDot_lhs1 (i : Cert.KernelIdeal.S128x256.Idx) (q : blockDot.contr.Idx) :
    (blockDot.lhsIdx i q 1).val = (q ⟨0, by decide⟩).val :=
  blockDot.lhsIdx_val_of_single rfl i q
theorem blockDot_rhs0 (i : Cert.KernelIdeal.S128x256.Idx) (q : blockDot.contr.Idx) :
    (blockDot.rhsIdx i q 0).val = (q ⟨0, by decide⟩).val :=
  blockDot.rhsIdx_val_of_single rfl i q
theorem blockDot_rhs1 (i : Cert.KernelIdeal.S128x256.Idx) (q : blockDot.contr.Idx) :
    (blockDot.rhsIdx i q 1).val = (i 1).val := by
  unfold DotDims.rhsIdx
  rw [dif_neg (show ¬(1 : Fin Cert.KernelIdeal.S256x256.rank) ∈ blockDot.rhsBatch by decide),
    dif_pos (show (1 : Fin Cert.KernelIdeal.S256x256.rank) ∈ blockDot.rhsNonContracting by decide)]
  rfl

/-- The product into a zero accumulator, at (r, i): the sum over the shared axis. -/
theorem blockDot_apply (A : FVec Ideal Cert.KernelIdeal.S128x256 .bf16) (B : FVec Ideal Cert.KernelIdeal.S256x256 .bf16)
    (r : Fin 128) (i : Fin 256) :
    matmul blockDot none A B (constant Cert.KernelIdeal.S128x256 .f32 0x00000000#32) (ix2 r i)
      = ∑ k : Fin 256, A (ix2 r k) * B (ix2 k i) := by
  simp only [matmul]
  rw [Ideal.matmul_constant_zero_apply, ← Equiv.sum_comp (contrEquiv1 blockDot 256 rfl rfl).symm]
  refine Finset.sum_congr rfl fun k _ => ?_
  have hk := contrEquiv1_symm_val blockDot 256 rfl rfl k
  have el : blockDot.lhsIdx (ix2 r i) ((contrEquiv1 blockDot 256 rfl rfl).symm k) = ix2 r k := funext fun a => Fin.ext (by
    match a with
    | ⟨0, _⟩ => exact blockDot_lhs0 _ _
    | ⟨1, _⟩ => exact (blockDot_lhs1 _ _).trans hk)
  have er : blockDot.rhsIdx (ix2 r i) ((contrEquiv1 blockDot 256 rfl rfl).symm k) = ix2 k i := funext fun a => Fin.ext (by
    match a with
    | ⟨0, _⟩ => exact (blockDot_rhs0 _ _).trans hk
    | ⟨1, _⟩ => exact blockDot_rhs1 _ _)
  rw [el, er]

/-! ## The kernel's distance value -/

/-- The kernel's distance value at row `r` of the block and codeword `i`. -/
theorem dist_kernel (x0 : Vec Ideal Cert.KernelIdeal.S128x256 .f32) (W : Vec Ideal Cert.KernelIdeal.S256x256 .f32)
    (r : Fin 128) (i : Fin 256) :
    k1_pay3 (F := Ideal) x0 W (ix2 r i) = distAt x0 W r i := by
  unfold k1_pay3 distAt
  dsimp only
  refine congrArg Ideal.sqrt (congrArg₂ max (congrArg₂ (· + ·) (congrArg₂ (· - ·) ?_ (congrArg₂ (· * ·) rfl ?_)) ?_) rfl)
  · -- the block row's squared norm
    refine (Cert.Lib.broadcastTo_a1_ab_apply _ _ r i).trans ((Cert.Lib.shapeCast_a_a1_apply _ _ r 0).trans ?_)
    exact Cert.Lib.rowSum_apply (mulf x0 x0) _ _ _ r
  · -- the inner products
    refine (blockDot_apply _ _ r i).trans ?_
    refine Finset.sum_congr rfl fun k _ => congrArg₂ (· * ·) rfl ?_
    exact transpose_ix2_apply _ _ k i
  · -- the codeword's squared norm
    refine (broadcastTo_1b_ab_apply _ _ r i).trans ((shapeCast_a_1a_apply _ _ 0 i).trans ?_)
    exact Cert.Lib.rowSum_apply (mulf W W) _ _ _ i

/-! ## The reference's distance stage -/

/-- The reference's distance stage at data row `b` and codeword `i`. -/
theorem dist_ref (X : Mat 4096 256) (W : Mat 256 256) (b : Fin 4096) (i : Fin 256) :
    val_main_v22 (F := Ideal) X W (ix2 b i) = distAt X W b i := by
  rw [val_main_v22_apply, val_main_v21_apply, val_main_v19_apply, val_main_v14_apply, val_main_v13_apply,
    val_main_v8_apply, val_main_v7_apply, val_main_v12_apply, val_main_v11_apply, val_main_v10_apply,
    val_main_v18_apply, val_main_v17_apply, val_main_v16_apply, val_main_v20_apply, val_main_cst_apply,
    val_main_cst_0_apply, val_main_cst_1_apply, val_main_cst_2_apply]
  unfold distAt sqNorm inner
  refine congrArg Ideal.sqrt (congrArg₂ max (congrArg₂ (· + ·) (congrArg₂ (· - ·) ?_ (congrArg₂ (· * ·) rfl ?_)) ?_) rfl)
  · -- the data row's squared norm: the host sum starts from the zero word
    show Ideal.ofBits .f32 0x00000000#32 + _ = _
    rw [Ideal.ofBits_zero_f32, zero_add]
    refine Finset.sum_congr rfl fun k _ => ?_
    have e : idx_main_v7 (idx_main_v8 (idx_main_v13 (ix2 b i))) k = ix2 b k :=
      funext fun a => by match a with | ⟨0, _⟩ => rfl | ⟨1, _⟩ => rfl
    rw [e]; rfl
  · -- the inner products
    refine Finset.sum_congr rfl fun k _ => ?_
    rw [val_main_v9_apply]
    have el : lidx_main_v10 (ix2 b i) k = ix2 b k :=
      funext fun a => by match a with | ⟨0, _⟩ => rfl | ⟨1, _⟩ => rfl
    have er : idx_main_v9 (ridx_main_v10 (ix2 b i) k) = ix2 i k :=
      funext fun a => by match a with | ⟨0, _⟩ => rfl | ⟨1, _⟩ => rfl
    rw [el, er]
  · -- the codeword's squared norm
    show Ideal.ofBits .f32 0x00000000#32 + _ = _
    rw [Ideal.ofBits_zero_f32, zero_add]
    refine Finset.sum_congr rfl fun k _ => ?_
    have e : idx_main_v16 (idx_main_v17 (idx_main_v18 (ix2 b i))) k = ix2 i k :=
      funext fun a => by match a with | ⟨0, _⟩ => rfl | ⟨1, _⟩ => rfl
    rw [e]; rfl

end Cert.Bridge

end
-- ==== Proof.RankBridge.lean ====
/-
  The second kernel's block value: the soft rank summed in two halves, and the weighted distance.

  For a block of 128 data rows the body forms the 128×256 distances `d`, and for each half of the codewords
  (columns 0–127, then 128–255) the 128×256×128 array σ((d(r,i) − d(r,j))/τ)·[i ≠ j] summed over its last axis;
  the two half sums are added to a zero array.  Since a sum over 256 columns is the sum over its two halves
  (addition on the extended reals is commutative and associative, infinite values included) the total is the soft rank
  `rankAt`, and the stored value e^((0 − rank)/λ)·(1 + ½·degree)·d is `outAt` of the block's rows.
-/
import proofs.«140149_j61469571940955_1_alg».proof.Proof.DistBridge

set_option maxRecDepth 16384

noncomputable section

namespace Cert.Bridge

open Idealize.ShloMosaic Idealize.ShloMosaic.ValueIdx
open Cert.KernelIdeal Cert.KernelIdeal.Gen

/-- One pairwise term: the distance block against a 128-column piece of itself, through the unit axes and the
    broadcasts to 128×256×128, divided by τ, through the logistic, times the mask. -/
theorem pair_term (D : FVec Ideal S128x256 .f32) (Dj : FVec Ideal S128x128 .f32) (Mk : FVec Ideal S256x128 .f32) (t : EReal)
    (h1 : S128x256.ShapeCasts S128x256x1) (h2 : S128x256x1.Broadcasts S128x256x128)
    (h3 : S128x128.ShapeCasts S128x1x128) (h4 : S128x1x128.Broadcasts S128x256x128)
    (h5 : S256x128.ShapeCasts S1x256x128) (h6 : S1x256x128.Broadcasts S128x256x128)
    (r : Fin 128) (i : Fin 256) (j : Fin 128) :
    mulf (logistic (divf (subf (broadcastTo S128x256x128 (shapeCast S128x256x1 D h1) h2)
        (broadcastTo S128x256x128 (shapeCast S128x1x128 Dj h3) h4)) (broadcast S128x256x128 t)))
      (broadcastTo S128x256x128 (shapeCast S1x256x128 Mk h5) h6) (ix3 r i j)
      = Ideal.logistic (Ideal.div (D (ix2 r i) - Dj (ix2 r j)) t) * Mk (ix2 i j) := by
  rw [mulf_apply]
  refine congrArg₂ (· * ·) (congrArg Ideal.logistic (congrArg₂ Ideal.div (congrArg₂ (· - ·) ?_ ?_) rfl)) ?_
  · exact (Cert.Lib.broadcastTo_ab1_abc_apply _ h2 r i j).trans (Cert.Lib.shapeCast_ab_ab1_apply D h1 r i 0)
  · exact (Cert.Lib.broadcastTo_a1c_abc_apply _ h4 r i j).trans (Cert.Lib.shapeCast_ab_a1b_apply Dj h3 r 0 j)
  · exact (Cert.Lib.broadcastTo_1bc_abc_apply _ h6 r i j).trans (shapeCast_ab_1ab_apply Mk h5 0 i j)

/-- The mask block for the columns from `o`: "row index ≠ column index + o" as a float. -/
theorem mask_block (o : ℕ) (h0 : S256x128.Iotas .tc 32 [0]) (h1 : S256x128.Iotas .tc 32 [1]) (hw : 1 < 32)
    (i : Fin 256) (j : Fin 128) (ho : j.val + o < 256) :
    (sitofp .f32 (extui 32 (cmpi .ne (iota .tc S256x128 32 [0] h0)
        (addi (iota .tc S256x128 32 [1] h1) (broadcast S256x128 (BitVec.ofNat 32 o)))) hw) : FVec Ideal S256x128 .f32) (ix2 i j)
      = offDiag i.val (j.val + o) := by
  rw [sitofp_apply, extui_apply]
  show FloatOps.sitofp .f32 ((IntOp.cmpi .ne (iota .tc S256x128 32 [0] h0 (ix2 i j))
      (IntOp.addi (iota .tc S256x128 32 [1] h1 (ix2 i j)) (BitVec.ofNat 32 o))).setWidth 32) = _
  rw [iota_single_apply, iota_single_apply]
  exact mask_ne i.val j.val o i.isLt ho

/-- The first half of the soft rank (columns 0–127), at row `r` of the block and codeword `i`. -/
theorem rank_first (x0 : Vec Ideal S128x256 .f32) (W : Vec Ideal S256x256 .f32) (r : Fin 128) (i : Fin 256) :
    k1_pay5 (F := Ideal) x0 W (ix2 r i) = ∑ j : Fin 128, rankTerm x0 W r i (Fin.castAdd 128 j) := by
  unfold k1_pay5
  dsimp only
  refine (Cert.Lib.laneSum3_apply _ _ _ _ r i).trans (Finset.sum_congr rfl fun j _ => ?_)
  refine (pair_term _ _ _ _ _ _ _ _ _ _ r i j).trans ?_
  unfold rankTerm
  refine congrArg₂ (· * ·) (congrArg Ideal.logistic (congrArg₂ Ideal.div (congrArg₂ (· - ·) ?_ ?_) rfl)) ?_
  · exact dist_kernel x0 W r i
  · refine (slice2_axis1_apply 0 _ _ r j (Fin.castAdd 128 j) (Nat.zero_add _).symm).trans ?_
    exact dist_kernel x0 W r (Fin.castAdd 128 j)
  · exact mask_block 0 _ _ _ i j (by have := j.isLt; omega)

/-- The soft rank as the sum of its two halves. -/
theorem rank_halves {n : ℕ} (X : Mat n 256) (W : Mat 256 256) (r : Fin n) (i : Fin 256) :
    rankAt X W r i = (∑ j : Fin 128, rankTerm X W r i (Fin.castAdd 128 j)) + ∑ j : Fin 128, rankTerm X W r i (Fin.natAdd 128 j) :=
  Fin.sum_univ_add (fun j : Fin (128 + 128) => rankTerm X W r i j)

/-- The value the body stores, at row `r` of the block and codeword `i`, when the degree block holds the degrees of `L`. -/
theorem out_kernel (x0 : Vec Ideal S128x256 .f32) (W : Vec Ideal S256x256 .f32) (x2 : Vec Ideal S1x256 .f32) (L : Mat 256 256)
    (hx2 : ∀ (u : Fin 1) (i : Fin 256), x2 (ix2 u i) = degAt L i) (r : Fin 128) (i : Fin 256) :
    k1_pay1 (F := Ideal) (k1_pay2 x2) (k1_pay3 x0 W) (k1_pay4 (F := Ideal)) (k1_pay5 x0 W) (ix2 r i) = outAt x0 W L r i := by
  unfold k1_pay1 k1_pay2 k1_pay4 outAt
  dsimp only
  refine congrArg₂ (· * ·) (congrArg₂ (· * ·) (congrArg Ideal.exp (congrArg₂ Ideal.div ?_ rfl)) ?_) ?_
  · -- 0 − ((0 + first half) + second half) = −(soft rank)
    show Ideal.ofBits .f32 0x00000000#32 - ((Ideal.ofBits .f32 0x00000000#32 + k1_pay5 (F := Ideal) x0 W (ix2 r i)) + _) = _
    rw [Ideal.ofBits_zero_f32, zero_add, sub_eq_add_neg, zero_add, rank_halves, rank_first]
    refine congrArg Neg.neg (congrArg₂ (· + ·) rfl ?_)
    refine (Cert.Lib.laneSum3_apply _ _ _ _ r i).trans (Finset.sum_congr rfl fun j _ => ?_)
    refine (pair_term _ _ _ _ _ _ _ _ _ _ r i j).trans ?_
    unfold rankTerm
    refine congrArg₂ (· * ·) (congrArg Ideal.logistic (congrArg₂ Ideal.div (congrArg₂ (· - ·) ?_ ?_) rfl)) ?_
    · exact dist_kernel x0 W r i
    · refine (slice2_axis1_apply 128 _ _ r j (Fin.natAdd 128 j) rfl).trans ?_
      exact dist_kernel x0 W r (Fin.natAdd 128 j)
    · refine (mask_block 128 _ _ _ i j (by have := j.isLt; omega)).trans ?_
      exact congrArg (offDiag i.val) (Nat.add_comm _ _)
  · -- the degree block, through its identity cast and the row broadcast
    refine (broadcastTo_1b_ab_apply _ _ r i).trans ?_
    refine congrArg₂ (· + ·) rfl (congrArg₂ (· * ·) rfl ?_)
    rw [shapeCast_self]
    exact hx2 0 i
  · exact dist_kernel x0 W r i

end Cert.Bridge

end
-- ==== Proof.OutValue.lean ====
/-
  What the distance kernel's launch leaves in its output array.

  The launch has 32 grid points; point `t` reads rows 128·t … 128·t+127 of the data (its block), the whole
  codeword array and the whole degree array (each one block, the same at every point), and writes back rows
  128·t … 128·t+127 of the output.  By the body's value on a block (`out_kernel`) and the fact that a row of the
  weighted distance depends on the data through that row only, point `t` writes back block `t` of ONE whole-array
  function: `outAt X W L b i` at row `b` and codeword `i`, with `X` and `W` the data and codewords as the launch
  finds them and `L` the logits whose degrees the degree array holds.  The 32 blocks cover the output array, so the
  array ends holding that function.
-/
import proofs.«140149_j61469571940955_1_alg».proof.Proof.Gen.KernelIdeal.Frame
import proofs.«140149_j61469571940955_1_alg».proof.Proof.RankBridge
import Idealize.ShloMosaic.Lib.Pipeline.Value

set_option maxRecDepth 16384

noncomputable section

namespace Cert.KernelIdeal.OutValue

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the 32 points: the data and output windows move down one block of rows per point,
    the codeword and degree windows stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 32 := by
  have h : t.val < grid1.N := t.isLt
  rw [N_1] at h; exact h

/-- Row `r` of point `t`'s block is row 128·t + r of the array. -/
def rowOf (t : Fin cfg1.N) (r : Fin 128) : Fin 4096 := ⟨t.val * 128 + r.val, by have := point_lt t; have := r.isLt; omega⟩

/-- An index inside the data block is that row of the array, -/
theorem emb_data (t : Fin cfg1.N) (r : Fin 128) (k : Fin 256) :
    ((cfg1.win 0).blk t).view.emb (ix2 r k) = ix2 (rowOf t r) k := by
  obtain ⟨e0, e1, -⟩ := index_facts t
  funext a; apply Fin.ext
  match a with
  | ⟨0, _⟩ => show win1_0.index t (0 : Fin 2) * 128 + 1 * r.val = t.val * 128 + r.val; omega
  | ⟨1, _⟩ => show win1_0.index t (1 : Fin 2) * 256 + 1 * k.val = k.val; omega

/-- inside the output block likewise, -/
theorem emb_out (t : Fin cfg1.N) (r : Fin 128) (i : Fin 256) :
    ((cfg1.win 3).blk t).view.emb (ix2 r i) = ix2 (rowOf t r) i := by
  obtain ⟨-, -, -, -, -, -, e0, e1⟩ := index_facts t
  funext a; apply Fin.ext
  match a with
  | ⟨0, _⟩ => show win1_3.index t (0 : Fin 2) * 128 + 1 * r.val = t.val * 128 + r.val; omega
  | ⟨1, _⟩ => show win1_3.index t (1 : Fin 2) * 256 + 1 * i.val = i.val; omega

/-- and the codeword and degree blocks are their whole arrays. -/
theorem emb_codes (t : Fin cfg1.N) (y : S256x256.Idx) : ((cfg1.win 1).blk t).view.emb y = y := by
  obtain ⟨-, -, e0, e1, -⟩ := index_facts t
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem emb_degs (t : Fin cfg1.N) (y : S1x256.Idx) : ((cfg1.win 2).blk t).view.emb y = y := by
  obtain ⟨-, -, -, -, e0, e1, -⟩ := index_facts t
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem block_codes (c : Dev nD) (t : Fin cfg1.N) : iblk1 V c 1 t = V c main_arg1 :=
  funext fun y => congrArg (V c main_arg1) (emb_codes t y)

theorem block_degs (c : Dev nD) (t : Fin cfg1.N) : iblk1 V c 2 t = V c main_v0_1 :=
  funext fun y => congrArg (V c main_v0_1) (emb_degs t y)

theorem block_data (c : Dev nD) (t : Fin cfg1.N) (r : Fin 128) (k : Fin 256) :
    iblk1 V c 0 t (ix2 r k) = V c main_arg0 (ix2 (rowOf t r) k) :=
  congrArg (V c main_arg0) (emb_data t r k)

/-- The whole-array function the output ends at. -/
def outFn (c : Dev nD) (L : Mat 256 256) : S4096x256.Idx → EReal :=
  fun idx => outAt (V c main_arg0) (V c main_arg1) L (idx 0) (idx 1)

/-- Point `t` writes back block `t` of that function. -/
theorem flushed_out (c : Dev nD) (L : Mat 256 256) (hdeg : ∀ (u : Fin 1) (i : Fin 256), V c main_v0_1 (ix2 u i) = degAt L i)
    (t : Fin cfg1.N) :
    (dat1 V c).flushed 3 t = ((cfg1.win 3).blk t).view.read (Elt Ideal) (outFn V c L) := by
  show (cfg1.win 3).cut (grid1.coords t) ((dat1 V c).after 3 t) = _
  rw [after1_3]
  unfold out1_3
  rw [View.canon_unit_zero zeros]
  simp only [View.ld_unit_zero (S := S128x256) zeros, View.ld_unit_zero (S := S256x256) zeros,
    View.ld_unit_zero (S := S1x256) zeros]
  rw [block_codes, block_degs]
  funext j
  obtain ⟨r, i, rfl⟩ : ∃ (r : Fin 128) (i : Fin 256), j = ix2 r i := ⟨j 0, j 1, eq_ix2 j⟩
  show k1_pay1 (F := Ideal) (k1_pay2 (V c main_v0_1)) (k1_pay3 (iblk1 V c 0 t) (V c main_arg1)) (k1_pay4 (F := Ideal))
      (k1_pay5 (iblk1 V c 0 t) (V c main_arg1)) (ix2 r i) = outFn V c L (((cfg1.win 3).blk t).view.emb (ix2 r i))
  rw [out_kernel (iblk1 V c 0 t) (V c main_arg1) (V c main_v0_1) L hdeg r i, emb_out t r i]
  exact outAt_row (iblk1 V c 0 t) (V c main_arg0) (V c main_arg1) L r (rowOf t r) i (fun k => block_data V c t r k)

/-- An index of the output array is in point `t`'s block iff each coordinate is in the block's range. -/
theorem mem_block_out (t : Fin cfg1.N) (i : S4096x256.Idx) :
    i ∈ ((cfg1.win 3).blk t).view.set ↔ ∀ a : Fin 2, win1_3.index t a * S128x256.size a ≤ (i a).val ∧ (i a).val < win1_3.index t a * S128x256.size a + S128x256.size a := by
  show i ∈ ((View.whole main_v24).slice (win1_3.rect t)).set ↔ _
  rw [View.set_slice_whole, Rect.mem_set_unit]
  exact Iff.rfl

/-- Row `b` is in the block of point `b / 128`: the 32 blocks cover the array. -/
theorem cover_out (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  let t : Fin cfg1.N := ⟨(i 0).val / 128, by show (i 0).val / 128 < grid1.N; rw [N_1]; omega⟩
  refine ⟨t, flush1_3 t, ?_⟩
  rw [mem_block_out]
  obtain ⟨-, -, -, -, -, -, e0, e1⟩ := index_facts t
  have ht : t.val = (i 0).val / 128 := rfl
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 256 ≤ (i 1).val ∧ (i 1).val < win1_3.index t (1 : Fin 2) * 256 + 256; omega

/-- After the launch the output array holds the weighted distances of the data, the codewords and the logits. -/
theorem final_out (c : Dev nD) (L : Mat 256 256) (hdeg : ∀ (u : Fin 1) (i : Fin 256), V c main_v0_1 (ix2 u i) = degAt L i) :
    (dat1 V c).arrAt 3 cfg1.N = outFn V c L :=
  (dat1 V c).arrAt_eq_of_cover 3 (outFn V c L) (fun t _ => flushed_out V c L hdeg t) cover_out

end Cert.KernelIdeal.OutValue

end
-- ==== Proof.EdgeBridge.lean ====
/-
  The edge kernel's two values and the reference's two stages are the same functions.

  Index by index, the kernel body's first value and the reference's edge-probability stage are both
  `edgeAt L p q` = σ(½·(L(p,q) + L(q,p)))·[p ≠ q]: the kernel applies the logistic as one operation and masks by
  "row ≠ column"; the reference spells the logistic 1/(1 + e^(−x)) and masks by 1 − [row = column].  The body's
  second value and the reference's degree stage are both `degAt L p` = (Σ_q edgeAt L p q)/255 (the reference's
  sum starts from the zero word).
-/
import proofs.«140149_j61469571940955_1_alg».proof.Proof.Gen.KernelIdeal.Skeleton
import proofs.«140149_j61469571940955_1_alg».proof.Proof.Gen.ReferenceIdeal.Read
import proofs.«140149_j61469571940955_1_alg».proof.Proof.Spec
import Idealize.ShloMosaic.Lib.ValueLayout
import Idealize.ShloMosaic.Lib.IdealHost
import Idealize.ShloMosaic.Lib.Pipeline.Value

set_option maxRecDepth 16384

noncomputable section

namespace Cert.Bridge

open Idealize.ShloMosaic Idealize.ShloMosaic.ValueIdx
open Cert.KernelIdeal.Gen Cert.ReferenceIdeal.Read

/-! ## The kernel's side -/

/-- The body's first value at (p, q). -/
theorem edge_kernel (L : Vec Ideal Cert.KernelIdeal.S256x256 .f32) (p q : Fin 256) :
    k0_pay1 (F := Ideal) L (ix2 p q) = edgeAt L p q := by
  unfold k0_pay1 edgeAt
  dsimp only
  rw [mulf_apply]
  refine congrArg₂ (· * ·) (congrArg Ideal.logistic (congrArg₂ (· * ·) rfl (congrArg₂ (· + ·) rfl ?_))) ?_
  · exact transpose_ix2_apply L _ p q
  · rw [sitofp_apply, extui_apply]
    show FloatOps.sitofp .f32 ((IntOp.cmpi .ne (iota .tc Cert.KernelIdeal.S256x256 32 [0] Cert.KernelIdeal.Facts₀.iota_S256x256_d0_w32 (ix2 p q))
      (iota .tc Cert.KernelIdeal.S256x256 32 [1] Cert.KernelIdeal.Facts₀.iota_S256x256_d1_w32 (ix2 p q))).setWidth 32) = _
    rw [iota_single_apply, iota_single_apply]
    exact mask_ne0 p.val q.val p.isLt q.isLt

/-- The body's second value at (0, p). -/
theorem deg_kernel (L : Vec Ideal Cert.KernelIdeal.S256x256 .f32) (u : Fin 1) (p : Fin 256) :
    k0_pay2 (F := Ideal) L (ix2 u p) = degAt L p := by
  unfold k0_pay2 degAt
  dsimp only
  rw [shapeCast_a_1a_apply, divf_apply]
  refine congrArg₂ Ideal.div ?_ rfl
  refine (Ideal.multiReduction_add_single (k0_pay1 (F := Ideal) L) 0x00000000#32 Cert.KernelIdeal.Facts₀.reduces_S256x256_S256 _ _ (ix1 p)).trans ?_
  refine Finset.sum_congr rfl fun k _ => ?_
  exact (congrArg (k0_pay1 (F := Ideal) L) (funext fun a => Fin.ext (by match a with | ⟨0, _⟩ => rfl | ⟨1, _⟩ => rfl))).trans (edge_kernel L p k)

/-! ## The reference's side -/

/-- The reference's edge-probability stage at (p, q). -/
theorem edge_ref (L : Mat 256 256) (p q : Fin 256) :
    val_main_v62 (F := Ideal) L (ix2 p q) = edgeAt L p q := by
  rw [val_main_v62_apply, val_main_v59_apply, val_main_v61_apply, val_main_v58_apply, val_main_v57_apply,
    val_main_v56_apply, val_main_v55_apply, val_main_v54_apply, val_main_v53_apply, val_main_v52_apply,
    val_main_v51_apply, val_main_v50_apply, val_main_v60_apply, val_main_v5_apply, val_main_v4_apply,
    val_main_v3_apply, val_main_v2_apply, val_main_v1_apply, val_main_v0_apply, val_main_c_apply,
    val_main_cst_11_apply, val_main_cst_12_apply, val_main_cst_13_apply, val_main_cst_14_apply]
  have hidx : idx_main_v50 (ix2 p q) = ix2 q p :=
    funext fun a => by match a with | ⟨0, _⟩ => rfl | ⟨1, _⟩ => rfl
  rw [hidx]
  show Ideal.div (Ideal.ofBits .f32 0x3F800000#32)
        (Ideal.ofBits .f32 0x3F800000#32 + Ideal.exp (-(Ideal.ofBits .f32 0x3F000000#32 * (L (ix2 p q) + L (ix2 q p)))))
      * (Ideal.ofBits .f32 0x3F800000#32
          - FloatOps.uitofp (F := Ideal) .f32 (IntOp.cmpi .eq (IntOp.addi (BitVec.ofNat 32 p.val) 0#32) (BitVec.ofNat 32 q.val))) = _
  rw [mask_one_sub_eq p.val q.val p.isLt q.isLt, Ideal.ofBits_one_f32]
  rfl

/-- The reference's degree stage at (0, p). -/
theorem deg_ref (L : Mat 256 256) (u : Fin 1) (p : Fin 256) :
    val_main_v66 (F := Ideal) L (ix2 u p) = degAt L p := by
  rw [val_main_v66_apply, val_main_v65_apply, val_main_v63_apply, val_main_v64_apply, val_main_cst_16_apply,
    val_main_cst_15_apply]
  show Ideal.div (Ideal.ofBits .f32 0x00000000#32 + ∑ k : Fin 256, val_main_v62 (F := Ideal) L (idx_main_v63 (idx_main_v66 (ix2 u p)) k))
      (Ideal.ofBits .f32 0x437F0000#32) = _
  rw [Ideal.ofBits_zero_f32, zero_add]
  unfold degAt
  refine congrArg₂ Ideal.div (Finset.sum_congr rfl fun k _ => ?_) rfl
  exact (congrArg (val_main_v62 (F := Ideal) L) (funext fun a => by match a with | ⟨0, _⟩ => rfl | ⟨1, _⟩ => rfl)).trans (edge_ref L p k)

end Cert.Bridge

end
-- ==== Proof.RefBridge.lean ====
/-
  The reference's soft-rank and weighted-distance stages are `rankAt` and `outAt`.

  The reference forms the whole 4096×256×256 array σ((d(b,i) − d(b,j))/τ)·(1 − [i = j]) with the logistic spelt
  1/(1 + e^(−x)), sums its last axis from the zero word, and then computes e^(−((1 + s) − 1)/λ)·(1 + ½·g(i))·d(b,i).
  On the extended reals (1 + s) − 1 = s for EVERY s (at ±∞ both sides are that infinity), so no finiteness is needed.
-/
import proofs.«140149_j61469571940955_1_alg».proof.Proof.DistBridge
import proofs.«140149_j61469571940955_1_alg».proof.Proof.EdgeBridge

set_option maxRecDepth 16384

noncomputable section

namespace Cert.Bridge

open Idealize.ShloMosaic Idealize.ShloMosaic.ValueIdx
open Cert.ReferenceIdeal.Read

/-- Adding one and taking it away again changes no extended real. -/
theorem one_add_sub_one (s : EReal) : (1 + s) - 1 = s := by
  induction s using EReal.rec with
  | bot => rw [EReal.add_bot, EReal.bot_sub]
  | coe x =>
    show ((1 : ℝ) : EReal) + (x : EReal) - ((1 : ℝ) : EReal) = (x : EReal)
    rw [← EReal.coe_add, ← EReal.coe_sub]; congr 1; ring
  | top =>
    rw [EReal.add_top_of_ne_bot (show (1 : EReal) ≠ ⊥ from EReal.coe_ne_bot 1)]
    exact EReal.top_sub_coe 1

/-- One term of the reference's pairwise array. -/
theorem rank_term_ref (X : Mat 4096 256) (W : Mat 256 256) (b : Fin 4096) (i k : Fin 256) :
    val_main_v40 (F := Ideal) X W (ix3 b i k) = rankTerm X W b i k := by
  rw [val_main_v40_apply, val_main_v35_apply, val_main_v34_apply, val_main_v33_apply, val_main_v32_apply,
    val_main_v31_apply, val_main_v30_apply, val_main_v29_apply, val_main_v28_apply, val_main_v27_apply,
    val_main_v25_apply, val_main_v23_apply, val_main_v26_apply, val_main_v24_apply,
    val_main_v39_apply, val_main_v38_apply, val_main_v37_apply, val_main_v36_apply, val_main_v5_apply,
    val_main_v4_apply, val_main_v3_apply, val_main_v2_apply, val_main_v1_apply, val_main_v0_apply, val_main_c_apply,
    val_main_cst_3_apply, val_main_cst_4_apply, val_main_cst_5_apply, val_main_cst_6_apply]
  have e1 : idx_main_v23 (idx_main_v25 (ix3 b i k)) = ix2 b i :=
    funext fun a => by match a with | ⟨0, _⟩ => rfl | ⟨1, _⟩ => rfl
  have e2 : idx_main_v24 (idx_main_v26 (ix3 b i k)) = ix2 b k :=
    funext fun a => by match a with | ⟨0, _⟩ => rfl | ⟨1, _⟩ => rfl
  rw [e1, e2, dist_ref, dist_ref]
  unfold rankTerm
  refine congrArg₂ (· * ·) ?_ ?_
  · show Ideal.div (Ideal.ofBits .f32 0x3F800000#32)
        (Ideal.ofBits .f32 0x3F800000#32
          + Ideal.exp (-(Ideal.div (distAt X W b i - distAt X W b k) (Ideal.ofBits .f32 0x3E4CCCCD#32)))) = _
    rw [Ideal.ofBits_one_f32]; rfl
  · exact mask_one_sub_eq i.val k.val i.isLt k.isLt

/-- The reference's soft-rank stage at (b, i): the host sum starts from the zero word. -/
theorem rank_ref (X : Mat 4096 256) (W : Mat 256 256) (b : Fin 4096) (i : Fin 256) :
    val_main_v41 (F := Ideal) X W (ix2 b i) = rankAt X W b i := by
  rw [val_main_v41_apply, val_main_cst_7_apply]
  show Ideal.ofBits .f32 0x00000000#32 + _ = _
  rw [Ideal.ofBits_zero_f32, zero_add]
  unfold rankAt
  refine Finset.sum_congr rfl fun k _ => ?_
  have e : idx_main_v41 (ix2 b i) k = ix3 b i k :=
    funext fun a => by match a with | ⟨0, _⟩ => rfl | ⟨1, _⟩ => rfl | ⟨2, _⟩ => rfl
  rw [e]; exact rank_term_ref X W b i k

/-- The reference's weighted-distance stage at (b, i). -/
theorem out_ref (X : Mat 4096 256) (W L : Mat 256 256) (b : Fin 4096) (i : Fin 256) :
    val_main_v73 (F := Ideal) X W L (ix2 b i) = outAt X W L b i := by
  rw [val_main_v73_apply, val_main_v72_apply, val_main_v49_apply, val_main_v48_apply, val_main_v47_apply,
    val_main_v46_apply, val_main_v45_apply, val_main_v44_apply, val_main_v43_apply, val_main_v42_apply,
    val_main_v71_apply, val_main_v70_apply, val_main_v69_apply, val_main_v68_apply, val_main_v67_apply,
    val_main_cst_8_apply, val_main_cst_9_apply, val_main_cst_10_apply, val_main_cst_17_apply, val_main_cst_18_apply,
    rank_ref, dist_ref]
  have e : idx_main_v71 (ix2 b i) = ix2 (0 : Fin 1) i :=
    funext fun a => by match a with | ⟨0, _⟩ => rfl | ⟨1, _⟩ => rfl
  rw [e, deg_ref]
  unfold outAt
  refine congrArg₂ (· * ·) (congrArg₂ (· * ·) (congrArg Ideal.exp (congrArg₂ Ideal.div ?_ rfl)) rfl) rfl
  show -((Ideal.ofBits .f32 0x3F800000#32 + rankAt X W b i) - Ideal.ofBits .f32 0x3F800000#32) = _
  rw [Ideal.ofBits_one_f32, one_add_sub_one]

end Cert.Bridge

end
-- ==== Proof.KernelValue.lean ====
/-
  The idealized kernel program's result as a function of its three argument arrays.

  Walking the boundary contents back from the result buffer:
  * after the first launch the edge-probability array is the reference's edge-probability stage of the logits and
    the degree array its degree stage (the one-block launch's values, index by index);
  * the first host stretch writes neither the data nor the codewords, so the second launch finds them as
    launched, and it finds the degree array as the first launch left it; hence its output array is the reference's
    weighted-distance stage of the three arguments;
  * the scalars the first stretch computes from the edge probabilities and the codewords, and the last stretch's
    combination of them with the mean of the output array, are the reference's own operations on those stages.
  So the result buffer ends holding the reference's last stage of the kernel program's own arguments.
-/
import proofs.«140149_j61469571940955_1_alg».proof.Proof.Gen.KernelIdeal.Frame
import proofs.«140149_j61469571940955_1_alg».proof.Proof.EdgeValue
import proofs.«140149_j61469571940955_1_alg».proof.Proof.OutValue
import proofs.«140149_j61469571940955_1_alg».proof.Proof.EdgeBridge
import proofs.«140149_j61469571940955_1_alg».proof.Proof.RefBridge
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.Bridge
open Cert.ReferenceIdeal.Read (val_main_v62 val_main_v66 val_main_v73 val_main_v96 val_main_v98 val_main_v102)

variable (m : (ℓ : Loc nD τ sig) → Buf (Elt Ideal) ℓ) (ρ : Dev nD → PrngReg)

/-- The three argument arrays as launched. -/
abbrev dataArr (c : Dev nD) : Mat 4096 256 := m ((c : Thread nD τ).loc main_arg0)
abbrev codeArr (c : Dev nD) : Mat 256 256 := m ((c : Thread nD τ).loc main_arg1)
abbrev logitArr (c : Dev nD) : Mat 256 256 := m ((c : Thread nD τ).loc main_arg2)

/-! ## After the first launch -/

/-- The edge-probability array is the reference's edge-probability stage of the logits. -/
theorem edge_array (c : Dev nD) :
    W1 m ρ c (Proc.devRef .tc main_v0_0) = val_main_v62 (F := Ideal) (logitArr m c) := by
  refine ((W1_arr m ρ c 1).trans (EdgeValue.final_edge (V0 m ρ) c)).trans ?_
  funext idx
  obtain ⟨p, q, rfl⟩ : ∃ (p q : Fin 256), idx = ix2 p q := ⟨idx 0, idx 1, eq_ix2 idx⟩
  exact (edge_kernel (logitArr m c) p q).trans (edge_ref (logitArr m c) p q).symm

/-- The degree array holds the degrees of the logits. -/
theorem deg_array (c : Dev nD) (u : Fin 1) (i : Fin 256) :
    W1 m ρ c (Proc.devRef .tc main_v0_1) (ix2 u i) = degAt (logitArr m c) i := by
  rw [show W1 m ρ c (Proc.devRef .tc main_v0_1) = k0_pay2 (F := Ideal) (logitArr m c) from
    (W1_arr m ρ c 2).trans (EdgeValue.final_deg (V0 m ρ) c)]
  exact deg_kernel (logitArr m c) u i

/-! ## What the second launch finds -/

theorem entry_data (c : Dev nD) : V2 m ρ c main_arg0 = dataArr m c := by
  show StableHlo.after hostOps1 (W1 m ρ c) (Proc.devRef .tc main_arg0) = _
  after_results_simp
  exact W1_of_ne m ρ c main_arg0 (by decide)

theorem entry_codes (c : Dev nD) : V2 m ρ c main_arg1 = codeArr m c := by
  show StableHlo.after hostOps1 (W1 m ρ c) (Proc.devRef .tc main_arg1) = _
  after_results_simp
  exact W1_of_ne m ρ c main_arg1 (by decide)

theorem entry_degs (c : Dev nD) (u : Fin 1) (i : Fin 256) : V2 m ρ c main_v0_1 (ix2 u i) = degAt (logitArr m c) i := by
  rw [show V2 m ρ c main_v0_1 = W1 m ρ c (Proc.devRef .tc main_v0_1) from by
    show StableHlo.after hostOps1 (W1 m ρ c) (Proc.devRef .tc main_v0_1) = _
    after_results_simp]
  exact deg_array m ρ c u i

/-! ## After the second launch -/

/-- The output array is the reference's weighted-distance stage of the three arguments. -/
theorem out_array (c : Dev nD) :
    W3 m ρ c (Proc.devRef .tc main_v24) = val_main_v73 (F := Ideal) (dataArr m c) (codeArr m c) (logitArr m c) := by
  refine ((W3_arr m ρ c 3).trans (OutValue.final_out (V2 m ρ) c (logitArr m c) (entry_degs m ρ c))).trans ?_
  funext idx
  obtain ⟨b, i, rfl⟩ : ∃ (b : Fin 4096) (i : Fin 256), idx = ix2 b i := ⟨idx 0, idx 1, eq_ix2 idx⟩
  show outAt (V2 m ρ c main_arg0) (V2 m ρ c main_arg1) (logitArr m c) b i = _
  rw [entry_data, entry_codes]
  exact (out_ref (dataArr m c) (codeArr m c) (logitArr m c) b i).symm

/-! ## The scalars of the first stretch, and the result -/

/-- The length term's quotient: the reference's own operations on the edge probabilities and the codewords. -/
theorem length_value (c : Dev nD) :
    W3 m ρ c (Proc.devRef .tc main_v21) = val_main_v96 (F := Ideal) (codeArr m c) (logitArr m c) := by
  rw [W3_of_ne m ρ c main_v21 (by decide)]
  show StableHlo.after hostOps1 (W1 m ρ c) (Proc.devRef .tc main_v21) = _
  after_results_simp
  rw [edge_array m ρ c, W1_of_ne m ρ c main_arg1 (by decide)]
  rfl

/-- The sparsity term's mean. -/
theorem sparsity_value (c : Dev nD) :
    W3 m ρ c (Proc.devRef .tc main_v23) = val_main_v98 (F := Ideal) (logitArr m c) := by
  rw [W3_of_ne m ρ c main_v23 (by decide)]
  show StableHlo.after hostOps1 (W1 m ρ c) (Proc.devRef .tc main_v23) = _
  after_results_simp
  rw [edge_array m ρ c]
  rfl

/-- THE RESULT: the last boundary's contents at the result buffer are the reference's last stage of the kernel
    program's own arguments. -/
theorem result_value (c : Dev nD) :
    W4 m ρ c (Proc.devRef .tc main_v30)
      = val_main_v102 (F := Ideal) (dataArr m c) (codeArr m c) (logitArr m c) := by
  show StableHlo.after hostOps2 (W3 m ρ c) (Proc.devRef .tc main_v30) = _
  after_results
  rw [out_array m ρ c, length_value m ρ c, sparsity_value m ρ c]
  rfl

end Cert.KernelIdeal.KernelValue

end
-- ==== Proof.lean ====
/-
  The kernel program (two launches — a one-block edge kernel and a 32-block distance kernel — among two stretches of
  host operations) against the reference (host operations only), on the extended reals.

  Both compute, from data X (4096×256), codewords W (256×256) and edge logits L (256×256), the scalar

      mean_{b,i} o(b,i)  +  c₁ · (Σ e·P)/(Σ e + ε)  +  c₂ · mean e,

  with e the edge probabilities σ(½(L + Lᵀ)) off the diagonal, P the codewords' pairwise squared distances, and
  o(b,i) = e^(−s(b,i)/λ)·(1 + ½·g(i))·d(b,i) the distances d weighted by their soft ranks s and the degrees g
  (Proof/Spec.lean).  The programs differ in how they get there: the kernel narrows the operands of its
  distance product to a shorter format (the identity here), masks by "≠" where the reference subtracts an identity
  matrix, applies the logistic as one operation where the reference spells 1/(1 + e^(−x)), sums the pairwise array in
  two halves of 128 columns where the reference sums 256, and exponentiates (0 − s)/λ where the reference has
  −((1 + s) − 1)/λ.  Each of these is an identity on the extended reals that needs no finiteness of the inputs, so the
  precondition is never opened.  The three frames are the generated ones (the reference's is its generated run with
  the result dropped); the idealization rewrote nothing, so `preserves` is trivial.
-/
import proofs.«140149_j61469571940955_1_alg».proof.Defs
import proofs.«140149_j61469571940955_1_alg».proof.Proof.Gen.Kernel
import proofs.«140149_j61469571940955_1_alg».proof.Proof.Gen.Kernel.Skeleton
import proofs.«140149_j61469571940955_1_alg».proof.Proof.Gen.Kernel.Launch
import proofs.«140149_j61469571940955_1_alg».proof.Proof.Gen.Kernel.Points
import proofs.«140149_j61469571940955_1_alg».proof.Proof.Gen.Kernel.Frame
import proofs.«140149_j61469571940955_1_alg».proof.Proof.Gen.KernelIdeal
import proofs.«140149_j61469571940955_1_alg».proof.Proof.Gen.KernelIdeal.Skeleton
import proofs.«140149_j61469571940955_1_alg».proof.Proof.Gen.KernelIdeal.Launch
import proofs.«140149_j61469571940955_1_alg».proof.Proof.Gen.KernelIdeal.Points
import proofs.«140149_j61469571940955_1_alg».proof.Proof.Gen.KernelIdeal.Frame
import proofs.«140149_j61469571940955_1_alg».proof.Proof.Gen.ReferenceIdeal
import proofs.«140149_j61469571940955_1_alg».proof.Proof.Gen.ReferenceIdeal.Run
import proofs.«140149_j61469571940955_1_alg».proof.Proof.Gen.ReferenceIdeal.Read
import proofs.«140149_j61469571940955_1_alg».proof.Proof.Gen.Pre_finite_inputs
import proofs.«140149_j61469571940955_1_alg».proof.Proof.RunValue
import proofs.«140149_j61469571940955_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the same scalar: the reference's last stage of
    the arguments, which the kernel program's result buffer also holds (`KernelValue.result_value`). -/
theorem algebraic : Cert.algebraic_KernelIdeal_ReferenceIdeal := by
  intro m ρ m' ρ' _ hagree
  refine ⟨fun c => Cert.ReferenceIdeal.Read.val_main_v102 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KernelValue.result_value m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v102_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
